-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S128x64 .f32) (main_arg7 : FVec F S128x64 .f32) (main_arg8 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg6
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x128 .f32) (main_arg1 : IVec S800000 32) (main_arg2 : IVec S800000 32) (main_arg3 : FVec F S128x128 .f32) (main_arg4 : FVec F S128x128 .f32) (main_arg5 : FVec F S128 .f32) (main_arg6 : FVec F S128x64 .f32) (main_arg7 : FVec F S128x64 .f32) (main_arg8 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S5000x128 : Shape := ⟨2, ![5000, 128]⟩
abbrev S1x64 : Shape := ⟨2, ![1, 64]⟩
abbrev S50000x64 : Shape := ⟨2, ![50000, 64]⟩
abbrev S5000x64 : Shape := ⟨2, ![5000, 64]⟩

abbrev nBuf : Space → Nat
  | .hbm => 57
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S128x64, .f32⟩
  | .hbm, ⟨8, _⟩ => ⟨S64, .f32⟩
  | .hbm, ⟨9, _⟩ => ⟨S_, .f32⟩
  | .hbm, ⟨10, _⟩ => ⟨S800000, .f32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x128, .f32⟩
  | .hbm, ⟨30, _⟩ => ⟨S_, .f32⟩
  | .hbm, ⟨31, _⟩ => ⟨S50000x128, .f32⟩
  | .hbm, ⟨32, _⟩ => ⟨S800000x1, .i32⟩
  | .hbm, ⟨33, _⟩ => ⟨S50000x128, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S1x128, .f32⟩
  | .hbm, ⟨38, _⟩ => ⟨S50000x128, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x128, .f32⟩
  | .hbm, ⟨48, _⟩ => ⟨S_, .f32⟩
  | .hbm, ⟨49, _⟩ => ⟨S50000x128, .f32⟩
  | .hbm, ⟨50, _⟩ => ⟨S800000x1, .i32⟩
  | .hbm, ⟨51, _⟩ => ⟨S50000x128, .f32⟩
  | .hbm, ⟨52, _⟩ => ⟨S50000x1, .f32⟩
  | .hbm, ⟨53, _⟩ => ⟨S50000x128, .f32⟩
  | .hbm, ⟨54, _⟩ => ⟨S50000x128, .f32⟩
  | .hbm, ⟨55, _⟩ => ⟨S1x64, .f32⟩
  | .hbm, ⟨56, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x64, .f32⟩
  | .local _ .vmem, ⟨14, _⟩ => ⟨S128x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_c : Ref sig .tc := ⟨.hbm, 21, rfl⟩
abbrev main_v8 : Ref sig .tc := ⟨.hbm, 22, rfl⟩
abbrev main_v9 : Ref sig .tc := ⟨.hbm, 23, rfl⟩
abbrev main_c_3 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_4 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_c_6 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v22) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S50000x64 : Shape := ⟨2, ![50000, 64]⟩
abbrev S1x64 : Shape := ⟨2, ![1, 64]⟩

abbrev nBuf : Space → Nat
  | .hbm => 68
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S128x64, .f32⟩
  | .hbm, ⟨8, _⟩ => ⟨S64, .f32⟩
  | .hbm, ⟨9, _⟩ => ⟨S_, .f32⟩
  | .hbm, ⟨10, _⟩ => ⟨S800000, .f32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x128, .f32⟩
  | .hbm, ⟨30, _⟩ => ⟨S_, .f32⟩
  | .hbm, ⟨31, _⟩ => ⟨S50000x128, .f32⟩
  | .hbm, ⟨32, _⟩ => ⟨S800000x1, .i32⟩
  | .hbm, ⟨33, _⟩ => ⟨S50000x128, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S1x128, .f32⟩
  | .hbm, ⟨41, _⟩ => ⟨S50000x128, .f32⟩
  | .hbm, ⟨42, _⟩ => ⟨S50000x128, .f32⟩
  | .hbm, ⟨43, _⟩ => ⟨S_, .f32⟩
  | .hbm, ⟨44, _⟩ => ⟨S50000x128, .f32⟩
  | .hbm, ⟨45, _⟩ => ⟨S50000x128, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x128, .f32⟩
  | .hbm, ⟨55, _⟩ => ⟨S_, .f32⟩
  | .hbm, ⟨56, _⟩ => ⟨S50000x128, .f32⟩
  | .hbm, ⟨57, _⟩ => ⟨S800000x1, .i32⟩
  | .hbm, ⟨58, _⟩ => ⟨S50000x128, .f32⟩
  | .hbm, ⟨59, _⟩ => ⟨S50000x1, .f32⟩
  | .hbm, ⟨60, _⟩ => ⟨S50000x128, .f32⟩
  | .hbm, ⟨61, _⟩ => ⟨S50000x128, .f32⟩
  | .hbm, ⟨62, _⟩ => ⟨S50000x64, .f32⟩
  | .hbm, ⟨63, _⟩ => ⟨S50000x64, .f32⟩
  | .hbm, ⟨64, _⟩ => ⟨S50000x64, .f32⟩
  | .hbm, ⟨65, _⟩ => ⟨S1x64, .f32⟩
  | .hbm, ⟨66, _⟩ => ⟨S50000x64, .f32⟩
  | .hbm, ⟨67, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_c : Ref sig .tc := ⟨.hbm, 21, rfl⟩
abbrev main_v8 : Ref sig .tc := ⟨.hbm, 22, rfl⟩
abbrev main_v9 : Ref sig .tc := ⟨.hbm, 23, rfl⟩
abbrev main_c_3 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_4 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_call0_cst : Ref sig .tc := ⟨.hbm, 43, rfl⟩
abbrev main_call0_v0 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_c_6 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelRun.lean ====
/-
  The idealized kernel program's run with its result named.

  The program is four segments — the host operations before the first layer's call, that call, the host operations
  between the calls, the second call. Each segment starts from every buffer of the core at known contents and ends
  with them at known contents; chained, every weakly fair execution terminates without a fault, and the final state
  holds every buffer at the contents after the last segment. Read at the result buffer this names the program's
  result; read at the arguments it says they are unchanged.
-/
import proofs.«137818_j27977416966302_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the
    contents after the last segment and the arguments as launched. -/
theorem run : θ_run defs (onTc (τ := τ) (main (F := F))) ⟨m, fun _ => 0, ρ⟩ (fun r => ∀ c : Dev nD,
      r.2.mem ((c.tc : Thread nD τ).loc main_v37) = W4 m ρ c (Proc.devRef .tc main_v37)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v37 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.KernelIdeal.RunValue

end
-- ==== Proof.Layer.lean ====
/-
  One graph-convolution layer at the exact extended reals, read index by index.

  A layer takes node features `h` (`[n, k]`), the aggregated neighbour features `hn` (`[n, k]`), two weight
  matrices `ws`, `wn` (`[k, c]`) and a bias along the output channels. Entry `(p, q)` of its output is row `p` of
  `h` against column `q` of `ws`, plus row `p` of `hn` against column `q` of `wn`, plus the bias at `q` — the two sums
  added first and the bias last, the grouping both programs compute in. A rectified layer is then cut off below at
  the value of the all-zero word. Only the commutative monoid of the extended reals is used: no entry need be finite.
-/
import Idealize.ShloMosaic.PureOps.Ideal
import Idealize.ShloMosaic.PureOps.Ideal.Laws
import Idealize.ShloMosaic.Lib.ValueIdx

noncomputable section

namespace Cert.Sage

open Idealize.ShloMosaic Idealize.ShloMosaic.ValueIdx

variable {n k c : ℕ}

/-- Entry `(p, q)` of a layer before its activation, the bias given as a function of the output channel. -/
def layerAt (h hn : FVec Ideal (⟨2, ![n, k]⟩ : Shape) .f32) (ws wn : FVec Ideal (⟨2, ![k, c]⟩ : Shape) .f32)
    (b : Fin c → Ideal .f32) (p : Fin n) (q : Fin c) : Ideal .f32 :=
  (∑ e : Fin k, h (ix2 p e) * ws (ix2 e q) + ∑ e : Fin k, hn (ix2 p e) * wn (ix2 e q)) + b q

/-- The threshold of the rectifier: the value of the all-zero 32-bit word. -/
def zero32 : Ideal .f32 := Ideal.ofBits .f32 0x00000000#32

/-- The layer as a whole array, the bias a vector over the output channels. -/
def layer (h hn : FVec Ideal (⟨2, ![n, k]⟩ : Shape) .f32) (ws wn : FVec Ideal (⟨2, ![k, c]⟩ : Shape) .f32)
    (b : FVec Ideal (⟨1, ![c]⟩ : Shape) .f32) : FVec Ideal (⟨2, ![n, c]⟩ : Shape) .f32 :=
  fun j => layerAt h hn ws wn (fun q => b (ix1 q)) (j 0) (j 1)

/-- The rectified layer as a whole array. -/
def layerRelu (h hn : FVec Ideal (⟨2, ![n, k]⟩ : Shape) .f32) (ws wn : FVec Ideal (⟨2, ![k, c]⟩ : Shape) .f32)
    (b : FVec Ideal (⟨1, ![c]⟩ : Shape) .f32) : FVec Ideal (⟨2, ![n, c]⟩ : Shape) .f32 :=
  fun j => max (layerAt h hn ws wn (fun q => b (ix1 q)) (j 0) (j 1)) zero32

theorem layer_apply (h hn : FVec Ideal (⟨2, ![n, k]⟩ : Shape) .f32) (ws wn : FVec Ideal (⟨2, ![k, c]⟩ : Shape) .f32)
    (b : FVec Ideal (⟨1, ![c]⟩ : Shape) .f32) (p : Fin n) (q : Fin c) :
    layer h hn ws wn b (ix2 p q) = layerAt h hn ws wn (fun q => b (ix1 q)) p q := rfl

theorem layerRelu_apply (h hn : FVec Ideal (⟨2, ![n, k]⟩ : Shape) .f32) (ws wn : FVec Ideal (⟨2, ![k, c]⟩ : Shape) .f32)
    (b : FVec Ideal (⟨1, ![c]⟩ : Shape) .f32) (p : Fin n) (q : Fin c) :
    layerRelu h hn ws wn b (ix2 p q) = max (layerAt h hn ws wn (fun q => b (ix1 q)) p q) zero32 := rfl

end Cert.Sage

end
-- ==== Proof.LibMatmulNN.lean ====
/-
  A plain matrix product read at an index at the exact extended reals: a general lemma.

  With dimension numbers that contract axis 1 of an `[M, K]` left factor with axis 0 of a `[K, N]` right factor (no
  batch axes; the result `[M, N]`), and a zero accumulator, entry `(p, q)` of the product is the sum over `e` of
  `lhs (p, e) * rhs (e, q)`: row `p` of the left factor against column `q` of the right one.
-/
import Idealize.ShloMosaic.PureOps.Ideal
import Idealize.ShloMosaic.PureOps.Ideal.Laws
import Idealize.ShloMosaic.Lib.ValueIdx

noncomputable section

namespace Cert.LibMatmulNN

open Idealize.ShloMosaic Idealize.ShloMosaic.ValueIdx

variable {M N K : ℕ}

/-- The dimension numbers "rows against columns": contract axis 1 with axis 0, keep axis 0 of the left factor and
    axis 1 of the right one, no batch. -/
abbrev dims (wf : DotDims.WF (⟨2, ![M, K]⟩ : Shape) (⟨2, ![K, N]⟩ : Shape) (⟨2, ![M, N]⟩ : Shape) [1] [0] [0] [1] [] []) :
    DotDims (⟨2, ![M, K]⟩ : Shape) (⟨2, ![K, N]⟩ : Shape) (⟨2, ![M, N]⟩ : Shape) where
  lhsContracting := [1]
  rhsContracting := [0]
  lhsNonContracting := [0]
  rhsNonContracting := [1]
  lhsBatch := []
  rhsBatch := []
  wf := wf

variable (wf : DotDims.WF (⟨2, ![M, K]⟩ : Shape) (⟨2, ![K, N]⟩ : Shape) (⟨2, ![M, N]⟩ : Shape) [1] [0] [0] [1] [] [])

/-- The left index keeps the result's row coordinate on its row axis. -/
theorem lhsIdx_row (j : (⟨2, ![M, N]⟩ : Shape).Idx) (k : (dims wf).contr.Idx) :
    ((dims wf).lhsIdx j k 0).val = (j 0).val := by
  unfold DotDims.lhsIdx
  rw [dif_neg (show ¬(0 : Fin (⟨2, ![M, K]⟩ : Shape).rank) ∈ (dims wf).lhsBatch from List.not_mem_nil),
    dif_pos (show (0 : Fin (⟨2, ![M, K]⟩ : Shape).rank) ∈ (dims wf).lhsNonContracting from List.mem_singleton.mpr rfl)]
  rfl

/-- The right index keeps the result's column coordinate on its column axis. -/
theorem rhsIdx_col (j : (⟨2, ![M, N]⟩ : Shape).Idx) (k : (dims wf).contr.Idx) :
    ((dims wf).rhsIdx j k 1).val = (j 1).val := by
  unfold DotDims.rhsIdx
  rw [dif_neg (show ¬(1 : Fin (⟨2, ![K, N]⟩ : Shape).rank) ∈ (dims wf).rhsBatch from List.not_mem_nil),
    dif_pos (show (1 : Fin (⟨2, ![K, N]⟩ : Shape).rank) ∈ (dims wf).rhsNonContracting from List.mem_singleton.mpr rfl)]
  rfl

/-- The left index at result `(p, q)` and contraction position `e` is `(p, e)`. -/
theorem lhsIdx_eq (p : Fin M) (q : Fin N) (e : Fin K) :
    (dims wf).lhsIdx (ix2 p q) ((contrEquiv1 (dims wf) K rfl rfl).symm e) = ix2 p e := by
  have he := contrEquiv1_symm_val (dims wf) K rfl rfl e
  funext a
  apply Fin.ext
  match a with
  | ⟨0, _⟩ => exact lhsIdx_row wf _ _
  | ⟨1, _⟩ => exact ((dims wf).lhsIdx_val_of_single rfl _ _).trans he

/-- The right index at result `(p, q)` and contraction position `e` is `(e, q)`. -/
theorem rhsIdx_eq (p : Fin M) (q : Fin N) (e : Fin K) :
    (dims wf).rhsIdx (ix2 p q) ((contrEquiv1 (dims wf) K rfl rfl).symm e) = ix2 e q := by
  have he := contrEquiv1_symm_val (dims wf) K rfl rfl e
  funext a
  apply Fin.ext
  match a with
  | ⟨0, _⟩ => exact ((dims wf).rhsIdx_val_of_single rfl _ _).trans he
  | ⟨1, _⟩ => exact rhsIdx_col wf _ _

/-- Entry `(p, q)` of the product into a zero accumulator: row `p` of `lhs` against column `q` of `rhs`. -/
theorem matmul_zero_apply {φ₁ φ₂ : FTy} (prec : Option ContractPrecision)
    (lhs : FVec Ideal (⟨2, ![M, K]⟩ : Shape) φ₁) (rhs : FVec Ideal (⟨2, ![K, N]⟩ : Shape) φ₂) (p : Fin M) (q : Fin N) :
    FloatOps.matmul (dims wf) prec lhs rhs (constant (F := Ideal) (⟨2, ![M, N]⟩ : Shape) .f32 0x00000000#32) (ix2 p q)
      = ∑ e : Fin K, lhs (ix2 p e) * rhs (ix2 e q) := by
  rw [Ideal.matmul_constant_zero_apply, ← Equiv.sum_comp (contrEquiv1 (dims wf) K rfl rfl).symm]
  refine Finset.sum_congr rfl fun e _ => ?_
  rw [lhsIdx_eq wf p q e, rhsIdx_eq wf p q e]

end Cert.LibMatmulNN

end
-- ==== Proof.LibBiasRow.lean ====
/-
  A bias vector laid along the rows, and a scalar spread over an array, read at an index: general lemmas.

  A vector `[b]` shape-cast to the row `[1, b]` keeps its entries in order, so the row at `(0, q)` is the vector at
  `q`; that row broadcast to `[a, b]` (a vector broadcast: trailing axes aligned, the unit axis repeated) reads, at
  `(p, q)`, the vector at `q` again. A rank-0 array broadcast to any shape reads its one entry everywhere.
-/
import Idealize.ShloMosaic.Lib.Pipeline.Value
import Idealize.ShloMosaic.Lib.ValueIdx

namespace BiasRead

open Idealize.ShloMosaic Idealize.ShloMosaic.ValueIdx

/-- A vector `[b]` shape-cast to the row `[1, b]` reads, at `(u, q)`, the vector at `q`. -/
theorem vector_as_row_apply {α : Type} {b : ℕ} (x : (⟨1, ![b]⟩ : Shape).Idx → α)
    (h : (⟨1, ![b]⟩ : Shape).ShapeCasts ⟨2, ![1, b]⟩) (u : Fin 1) (q : Fin b) :
    shapeCast ⟨2, ![1, b]⟩ x h (ix2 u q) = x (ix1 q) := by
  refine shapeCast_apply x h (ix2 u q) (ix1 q) ?_
  rw [Shape.rowMajor_val_one, Shape.rowMajor_val_two]
  show q.val = u.val * b + q.val
  have hu : u.val = 0 := by have := u.isLt; omega
  rw [hu, Nat.zero_mul, Nat.zero_add]

/-- A row `[1, b]` broadcast down to `[a, b]` (trailing axes aligned) reads, at `(p, q)`, the row at `(0, q)`. -/
theorem row_down_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- A bias vector `[b]` made a row and broadcast down to `[a, b]` reads, at `(p, q)`, the vector at `q`. -/
theorem bias_rows_apply {α : Type} {a b : ℕ} (x : (⟨1, ![b]⟩ : Shape).Idx → α)
    (h₁ : (⟨1, ![b]⟩ : Shape).ShapeCasts ⟨2, ![1, b]⟩) (h₂ : (⟨2, ![1, b]⟩ : Shape).Broadcasts ⟨2, ![a, b]⟩)
    (p : Fin a) (q : Fin b) :
    broadcastTo ⟨2, ![a, b]⟩ (shapeCast ⟨2, ![1, b]⟩ x h₁) h₂ (ix2 p q) = x (ix1 q) :=
  (row_down_apply _ h₂ p q).trans (vector_as_row_apply x h₁ 0 q)

/-- A rank-0 array broadcast to any shape reads its one entry at every index. -/
theorem scalar_apply {α : Type} {t : Shape} (x : (⟨0, ![]⟩ : Shape).Idx → α)
    (h : (⟨0, ![]⟩ : Shape).BroadcastsInDim t ![]) (j : t.Idx) (k : (⟨0, ![]⟩ : Shape).Idx) :
    broadcastInDim t ![] h x j = x k :=
  broadcastInDim_apply ![] h x j k fun ax => ax.elim0

end BiasRead
-- ==== Proof.KernelBlock.lean ====
/-
  What one grid point of each layer's kernel stores, read at an index.

  A point loads a block of 5000 rows of the features and of the aggregated neighbour features, both weight matrices
  whole and the bias as a one-row array, and stores one value: the two matrix products into zero accumulators added,
  the bias row repeated down the rows added to that, and — in the first layer — the maximum with zero. A change of
  float format is the identity on the extended reals and a product into a zero accumulator is the plain sum over the
  contracted axis, so entry `(p, q)` of the stored block is the layer's entry over the loaded blocks.
-/
import proofs.«137818_j27977416966302_1_alg».proof.Proof.Gen.KernelIdeal.Skeleton
import proofs.«137818_j27977416966302_1_alg».proof.Proof.Layer
import proofs.«137818_j27977416966302_1_alg».proof.Proof.LibMatmulNN
import proofs.«137818_j27977416966302_1_alg».proof.Proof.LibBiasRow
import Idealize.ShloMosaic.Lib.Pipeline.Value
import Idealize.ShloMosaic.Lib.ValueIdx

noncomputable section

namespace Cert.KernelIdeal.Block

open Cert.KernelIdeal Cert.KernelIdeal.Gen Idealize.ShloMosaic Idealize.ShloMosaic.ValueIdx

/-- A block of rows against a 128-column weight matrix, into a zero accumulator, at `(p, q)`. -/
theorem product128 {φ₁ φ₂ : FTy} (a : FVec Ideal S5000x128 φ₁) (w : FVec Ideal S128x128 φ₂) (p : Fin 5000) (q : Fin 128) :
    matmul dot_S5000x128_S128x128_S5000x128_1_0_0_1_n_n none a w (constant (F := Ideal) S5000x128 .f32 0x00000000#32) (ix2 p q)
      = ∑ e : Fin 128, a (ix2 p e) * w (ix2 e q) :=
  Cert.LibMatmulNN.matmul_zero_apply (M := 5000) (N := 128) (K := 128) dot_S5000x128_S128x128_S5000x128_1_0_0_1_n_n_wf none a w p q

/-- A block of rows against a 64-column weight matrix, into a zero accumulator, at `(p, q)`. -/
theorem product64 {φ₁ φ₂ : FTy} (a : FVec Ideal S5000x128 φ₁) (w : FVec Ideal S128x64 φ₂) (p : Fin 5000) (q : Fin 64) :
    matmul dot_S5000x128_S128x64_S5000x64_1_0_0_1_n_n none a w (constant (F := Ideal) S5000x64 .f32 0x00000000#32) (ix2 p q)
      = ∑ e : Fin 128, a (ix2 p e) * w (ix2 e q) :=
  Cert.LibMatmulNN.matmul_zero_apply (M := 5000) (N := 64) (K := 128) dot_S5000x128_S128x64_S5000x64_1_0_0_1_n_n_wf none a w p q

/-- The one-row bias repeated down 5000 rows reads, at `(p, q)`, the row at `q` (128 columns). -/
theorem biasRow128 (x4 : FVec Ideal S1x128 .f32) (h₁ : S1x128.ShapeCasts S1x128) (h₂ : S1x128.Broadcasts S5000x128)
    (p : Fin 5000) (q : Fin 128) :
    broadcastTo S5000x128 (shapeCast S1x128 x4 h₁) h₂ (ix2 p q) = x4 (ix2 (0 : Fin 1) q) := by
  rw [shapeCast_self]; exact BiasRead.row_down_apply x4 h₂ p q

/-- The one-row bias repeated down 5000 rows reads, at `(p, q)`, the row at `q` (64 columns). -/
theorem biasRow64 (x4 : FVec Ideal S1x64 .f32) (h₁ : S1x64.ShapeCasts S1x64) (h₂ : S1x64.Broadcasts S5000x64)
    (p : Fin 5000) (q : Fin 64) :
    broadcastTo S5000x64 (shapeCast S1x64 x4 h₁) h₂ (ix2 p q) = x4 (ix2 (0 : Fin 1) q) := by
  rw [shapeCast_self]; exact BiasRead.row_down_apply x4 h₂ p q

/-- The first layer's stored block at `(p, q)`: the rectified layer entry over the loaded blocks. -/
theorem pay0_apply (x0 x1 : Vec Ideal S5000x128 .f32) (x2 x3 : Vec Ideal S128x128 .f32) (x4 : Vec Ideal S1x128 .f32)
    (p : Fin 5000) (q : Fin 128) :
    k0_pay1 (F := Ideal) x0 x1 x2 x3 x4 (ix2 p q)
      = max (Cert.Sage.layerAt x0 x1 x2 x3 (fun q => x4 (ix2 (0 : Fin 1) q)) p q) Cert.Sage.zero32 := by
  unfold k0_pay1 Cert.Sage.layerAt
  dsimp only
  rw [maximumf_apply, addf_apply, addf_apply, product128, product128, biasRow128, shapeCast_self]
  rfl

/-- The second layer's stored block at `(p, q)`: the layer entry over the loaded blocks. -/
theorem pay1_apply (x0 x1 : Vec Ideal S5000x128 .f32) (x2 x3 : Vec Ideal S128x64 .f32) (x4 : Vec Ideal S1x64 .f32)
    (p : Fin 5000) (q : Fin 64) :
    k1_pay1 (F := Ideal) x0 x1 x2 x3 x4 (ix2 p q)
      = Cert.Sage.layerAt x0 x1 x2 x3 (fun q => x4 (ix2 (0 : Fin 1) q)) p q := by
  unfold k1_pay1 Cert.Sage.layerAt
  dsimp only
  rw [addf_apply, addf_apply, product64, product64, biasRow64, shapeCast_self, shapeCast_self]
  rfl

end Cert.KernelIdeal.Block

end
-- ==== Proof.Region0.lean ====
/-
  The first layer's call: its output array, after the call, as one function of the arrays the call finds.

  The grid has ten points; point `t` loads rows `5000 t … 5000 t + 4999` of the features and of the aggregated
  neighbour features, the two weight matrices and the one-row bias whole, and writes back rows `5000 t … 5000 t + 4999`
  of the output. What it writes is the layer's entry over what it loaded, and what it loaded are those rows of the
  arrays as the call found them; the ten row blocks tile the output. So the output array ends at the layer of the
  arrays the call was entered with — whatever those are.
-/
import proofs.«137818_j27977416966302_1_alg».proof.Proof.Gen.KernelIdeal.Frame
import proofs.«137818_j27977416966302_1_alg».proof.Proof.KernelBlock
import Idealize.ShloMosaic.Lib.Pipeline.Value
import Idealize.ShloMosaic.Lib.ValueIdx

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zeros : (![0, 0] : Fin 2 → Nat) = fun _ => 0 := funext fun a => by fin_cases a <;> rfl

/-- The printed index maps over the grid: the row windows and the output move with the point along the rows, the
    weights and the bias stay at block zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The output array's function of the arrays the call finds. -/
def out (c : Dev nD) : S50000x128.Idx → Ideal .f32 :=
  Cert.Sage.layerRelu (n := 50000) (k := 128) (c := 128)
    (V c main_arg0 : S50000x128.Idx → Ideal .f32) (V c main_v20 : S50000x128.Idx → Ideal .f32)
    (V c main_arg3 : S128x128.Idx → Ideal .f32) (V c main_arg4 : S128x128.Idx → Ideal .f32)
    (fun j => (V c main_v21 : S1x128.Idx → Ideal .f32) (ix2 (0 : Fin 1) (j 0)))

/-- Row `p` of point `t`'s block of the features is row `5000 t + p` of the array. -/
theorem rows0 (c : Dev nD) (t : Fin cfg0.N) (p : Fin 5000) (e : Fin 128) (hp : t.val * 5000 + p.val < 50000) :
    iblk0 V c 0 t (ix2 p e) = (V c main_arg0 : S50000x128.Idx → Ideal .f32) (ix2 ⟨t.val * 5000 + p.val, hp⟩ e) := by
  obtain ⟨e0, e1, -⟩ := idx_facts t
  show (V c main_arg0 : S50000x128.Idx → Ideal .f32) (((cfg0.win 0).blk t).view.emb (ix2 p e)) = _
  refine congrArg _ (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * e.val = e.val; omega

/-- Row `p` of point `t`'s block of the neighbour features is row `5000 t + p` of the array. -/
theorem rows1 (c : Dev nD) (t : Fin cfg0.N) (p : Fin 5000) (e : Fin 128) (hp : t.val * 5000 + p.val < 50000) :
    iblk0 V c 1 t (ix2 p e) = (V c main_v20 : S50000x128.Idx → Ideal .f32) (ix2 ⟨t.val * 5000 + p.val, hp⟩ e) := by
  obtain ⟨-, -, e0, e1, -⟩ := idx_facts t
  show (V c main_v20 : S50000x128.Idx → Ideal .f32) (((cfg0.win 1).blk t).view.emb (ix2 p e)) = _
  refine congrArg _ (funext fun a => Fin.ext ?_)
  match a with
  | ⟨0, _⟩ => show win0_1.index t (0 : Fin 2) * 5000 + 1 * p.val = t.val * 5000 + p.val; omega
  | ⟨1, _⟩ => show win0_1.index t (1 : Fin 2) * 128 + 1 * e.val = e.val; omega

/-- Every point's block of the self weights is the whole matrix. -/
theorem whole2 (c : Dev nD) (t : Fin cfg0.N) (e : Fin 128) (q : Fin 128) :
    iblk0 V c 2 t (ix2 e q) = (V c main_arg3 : S128x128.Idx → Ideal .f32) (ix2 e q) := by
  obtain ⟨-, -, -, -, e0, e1, -⟩ := idx_facts t
  show (V c main_arg3 : S128x128.Idx → Ideal .f32) (((cfg0.win 2).blk t).view.emb (ix2 e q)) = _
  refine congrArg _ (funext fun a => Fin.ext ?_)
  match a with
  | ⟨0, _⟩ => show win0_2.index t (0 : Fin 2) * 128 + 1 * e.val = e.val; omega
  | ⟨1, _⟩ => show win0_2.index t (1 : Fin 2) * 128 + 1 * q.val = q.val; omega

/-- Every point's block of the neighbour weights is the whole matrix. -/
theorem whole3 (c : Dev nD) (t : Fin cfg0.N) (e : Fin 128) (q : Fin 128) :
    iblk0 V c 3 t (ix2 e q) = (V c main_arg4 : S128x128.Idx → Ideal .f32) (ix2 e q) := by
  obtain ⟨-, -, -, -, -, -, e0, e1, -⟩ := idx_facts t
  show (V c main_arg4 : S128x128.Idx → Ideal .f32) (((cfg0.win 3).blk t).view.emb (ix2 e q)) = _
  refine congrArg _ (funext fun a => Fin.ext ?_)
  match a with
  | ⟨0, _⟩ => show win0_3.index t (0 : Fin 2) * 128 + 1 * e.val = e.val; omega
  | ⟨1, _⟩ => show win0_3.index t (1 : Fin 2) * 128 + 1 * q.val = q.val; omega

/-- Every point's block of the bias is the whole one-row array. -/
theorem whole4 (c : Dev nD) (t : Fin cfg0.N) (q : Fin 128) :
    iblk0 V c 4 t (ix2 (0 : Fin 1) q) = (V c main_v21 : S1x128.Idx → Ideal .f32) (ix2 (0 : Fin 1) q) := by
  obtain ⟨-, -, -, -, -, -, -, -, e0, e1, -⟩ := idx_facts t
  show (V c main_v21 : S1x128.Idx → Ideal .f32) (((cfg0.win 4).blk t).view.emb (ix2 (0 : Fin 1) q)) = _
  refine congrArg _ (funext fun a => Fin.ext ?_)
  match a with
  | ⟨0, _⟩ => show win0_4.index t (0 : Fin 2) * 1 + 1 * 0 = 0; omega
  | ⟨1, _⟩ => show win0_4.index t (1 : Fin 2) * 128 + 1 * q.val = q.val; omega

/-- Entry `(p, q)` of point `t`'s output block sits at row `5000 t + p`, column `q` of the output array. -/
theorem out_at (t : Fin cfg0.N) (p : Fin 5000) (q : Fin 128) (hp : t.val * 5000 + p.val < 50000) :
    ((cfg0.win 5).blk t).view.emb (ix2 p q) = (ix2 ⟨t.val * 5000 + p.val, hp⟩ q : S50000x128.Idx) := by
  obtain ⟨-, -, -, -, -, -, -, -, -, -, e0, e1⟩ := idx_facts t
  refine funext fun a => Fin.ext ?_
  match a with
  | ⟨0, _⟩ => show win0_5.index t (0 : Fin 2) * 5000 + 1 * p.val = t.val * 5000 + p.val; omega
  | ⟨1, _⟩ => show win0_5.index t (1 : Fin 2) * 128 + 1 * q.val = q.val; omega

/-- What point `t` writes back is block `t` of `out`. -/
theorem flushed_eq (c : Dev nD) (t : Fin cfg0.N) :
    (dat0 V c).flushed 5 t = ((cfg0.win 5).blk t).view.read (Elt Ideal) (out V c) := by
  show (cfg0.win 5).cut (grid0.coords t) ((dat0 V c).after 5 t) = _
  rw [after0_5]
  unfold out0_5
  rw [View.canon_unit_zero zeros]
  simp only [View.ld_unit_zero (S := S5000x128) zeros, View.ld_unit_zero (S := S128x128) zeros, View.ld_unit_zero (S := S1x128) zeros]
  funext j
  obtain ⟨p, q, rfl⟩ : ∃ (p : Fin 5000) (q : Fin 128), j = ix2 p q := ⟨j 0, j 1, eq_ix2 j⟩
  have hp : t.val * 5000 + p.val < 50000 := by
    have h1 := t.isLt; have h2 : cfg0.N = 10 := N_0; have h3 := p.isLt; omega
  show k0_pay1 (F := Ideal) (iblk0 V c 0 t) (iblk0 V c 1 t) (iblk0 V c 2 t) (iblk0 V c 3 t) (iblk0 V c 4 t) (ix2 p q)
    = out V c (((cfg0.win 5).blk t).view.emb (ix2 p q))
  rw [Cert.KernelIdeal.Block.pay0_apply, out_at t p q hp]
  unfold out
  rw [Cert.Sage.layerRelu_apply]
  unfold Cert.Sage.layerAt
  simp only [rows0 V c t p _ hp, rows1 V c t p _ hp, whole2 V c t, whole3 V c t, whole4 V c t]

/-- An index of the output array is in point `t`'s block iff each coordinate is in the block's range on its axis. -/
theorem mem_blk (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v22).slice (win0_5.rect t)).set ↔ _
  rw [View.set_slice_whole, Rect.mem_set_unit]
  exact Iff.rfl

/-- The ten row blocks tile the output: row `r` is in the block of point `r / 5000`. -/
theorem cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  obtain ⟨-, -, -, -, -, -, -, -, -, -, e0, e1⟩ := idx_facts t
  have ht : t.val = (i 0).val / 5000 := rfl
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- The output array after the call is the layer of the arrays the call was entered with. -/
theorem final (c : Dev nD) : (dat0 V c).arrAt 5 cfg0.N = out V c :=
  (dat0 V c).arrAt_eq_of_cover 5 (out V c) (fun t _ => flushed_eq V c t) (cover)

end Cert.KernelIdeal.Region0

end
-- ==== Proof.Region1.lean ====
/-
  The second layer's call: its output array, after the call, as one function of the arrays the call finds.

  The grid has ten points; point `t` loads rows `5000 t … 5000 t + 4999` of the features and of the aggregated
  neighbour features, the two weight matrices and the one-row bias whole, and writes back rows `5000 t … 5000 t + 4999`
  of the output. What it writes is the layer's entry over what it loaded, and what it loaded are those rows of the
  arrays as the call found them; the ten row blocks tile the output. So the output array ends at the layer of the
  arrays the call was entered with — whatever those are.
-/
import proofs.«137818_j27977416966302_1_alg».proof.Proof.Gen.KernelIdeal.Frame
import proofs.«137818_j27977416966302_1_alg».proof.Proof.KernelBlock
import Idealize.ShloMosaic.Lib.Pipeline.Value
import Idealize.ShloMosaic.Lib.ValueIdx

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zeros : (![0, 0] : Fin 2 → Nat) = fun _ => 0 := funext fun a => by fin_cases a <;> rfl

/-- The printed index maps over the grid: the row windows and the output move with the point along the rows, the
    weights and the bias stay at block zero. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The output array's function of the arrays the call finds. -/
def out (c : Dev nD) : S50000x64.Idx → Ideal .f32 :=
  Cert.Sage.layer (n := 50000) (k := 128) (c := 64)
    (V c main_v22 : S50000x128.Idx → Ideal .f32) (V c main_v35 : S50000x128.Idx → Ideal .f32)
    (V c main_arg6 : S128x64.Idx → Ideal .f32) (V c main_arg7 : S128x64.Idx → Ideal .f32)
    (fun j => (V c main_v36 : S1x64.Idx → Ideal .f32) (ix2 (0 : Fin 1) (j 0)))

/-- Row `p` of point `t`'s block of the features is row `5000 t + p` of the array. -/
theorem rows0 (c : Dev nD) (t : Fin cfg1.N) (p : Fin 5000) (e : Fin 128) (hp : t.val * 5000 + p.val < 50000) :
    iblk1 V c 0 t (ix2 p e) = (V c main_v22 : S50000x128.Idx → Ideal .f32) (ix2 ⟨t.val * 5000 + p.val, hp⟩ e) := by
  obtain ⟨e0, e1, -⟩ := idx_facts t
  show (V c main_v22 : S50000x128.Idx → Ideal .f32) (((cfg1.win 0).blk t).view.emb (ix2 p e)) = _
  refine congrArg _ (funext fun a => Fin.ext ?_)
  match a with
  | ⟨0, _⟩ => show win1_0.index t (0 : Fin 2) * 5000 + 1 * p.val = t.val * 5000 + p.val; omega
  | ⟨1, _⟩ => show win1_0.index t (1 : Fin 2) * 128 + 1 * e.val = e.val; omega

/-- Row `p` of point `t`'s block of the neighbour features is row `5000 t + p` of the array. -/
theorem rows1 (c : Dev nD) (t : Fin cfg1.N) (p : Fin 5000) (e : Fin 128) (hp : t.val * 5000 + p.val < 50000) :
    iblk1 V c 1 t (ix2 p e) = (V c main_v35 : S50000x128.Idx → Ideal .f32) (ix2 ⟨t.val * 5000 + p.val, hp⟩ e) := by
  obtain ⟨-, -, e0, e1, -⟩ := idx_facts t
  show (V c main_v35 : S50000x128.Idx → Ideal .f32) (((cfg1.win 1).blk t).view.emb (ix2 p e)) = _
  refine congrArg _ (funext fun a => Fin.ext ?_)
  match a with
  | ⟨0, _⟩ => show win1_1.index t (0 : Fin 2) * 5000 + 1 * p.val = t.val * 5000 + p.val; omega
  | ⟨1, _⟩ => show win1_1.index t (1 : Fin 2) * 128 + 1 * e.val = e.val; omega

/-- Every point's block of the self weights is the whole matrix. -/
theorem whole2 (c : Dev nD) (t : Fin cfg1.N) (e : Fin 128) (q : Fin 64) :
    iblk1 V c 2 t (ix2 e q) = (V c main_arg6 : S128x64.Idx → Ideal .f32) (ix2 e q) := by
  obtain ⟨-, -, -, -, e0, e1, -⟩ := idx_facts t
  show (V c main_arg6 : S128x64.Idx → Ideal .f32) (((cfg1.win 2).blk t).view.emb (ix2 e q)) = _
  refine congrArg _ (funext fun a => Fin.ext ?_)
  match a with
  | ⟨0, _⟩ => show win1_2.index t (0 : Fin 2) * 128 + 1 * e.val = e.val; omega
  | ⟨1, _⟩ => show win1_2.index t (1 : Fin 2) * 64 + 1 * q.val = q.val; omega

/-- Every point's block of the neighbour weights is the whole matrix. -/
theorem whole3 (c : Dev nD) (t : Fin cfg1.N) (e : Fin 128) (q : Fin 64) :
    iblk1 V c 3 t (ix2 e q) = (V c main_arg7 : S128x64.Idx → Ideal .f32) (ix2 e q) := by
  obtain ⟨-, -, -, -, -, -, e0, e1, -⟩ := idx_facts t
  show (V c main_arg7 : S128x64.Idx → Ideal .f32) (((cfg1.win 3).blk t).view.emb (ix2 e q)) = _
  refine congrArg _ (funext fun a => Fin.ext ?_)
  match a with
  | ⟨0, _⟩ => show win1_3.index t (0 : Fin 2) * 128 + 1 * e.val = e.val; omega
  | ⟨1, _⟩ => show win1_3.index t (1 : Fin 2) * 64 + 1 * q.val = q.val; omega

/-- Every point's block of the bias is the whole one-row array. -/
theorem whole4 (c : Dev nD) (t : Fin cfg1.N) (q : Fin 64) :
    iblk1 V c 4 t (ix2 (0 : Fin 1) q) = (V c main_v36 : S1x64.Idx → Ideal .f32) (ix2 (0 : Fin 1) q) := by
  obtain ⟨-, -, -, -, -, -, -, -, e0, e1, -⟩ := idx_facts t
  show (V c main_v36 : S1x64.Idx → Ideal .f32) (((cfg1.win 4).blk t).view.emb (ix2 (0 : Fin 1) q)) = _
  refine congrArg _ (funext fun a => Fin.ext ?_)
  match a with
  | ⟨0, _⟩ => show win1_4.index t (0 : Fin 2) * 1 + 1 * 0 = 0; omega
  | ⟨1, _⟩ => show win1_4.index t (1 : Fin 2) * 64 + 1 * q.val = q.val; omega

/-- Entry `(p, q)` of point `t`'s output block sits at row `5000 t + p`, column `q` of the output array. -/
theorem out_at (t : Fin cfg1.N) (p : Fin 5000) (q : Fin 64) (hp : t.val * 5000 + p.val < 50000) :
    ((cfg1.win 5).blk t).view.emb (ix2 p q) = (ix2 ⟨t.val * 5000 + p.val, hp⟩ q : S50000x64.Idx) := by
  obtain ⟨-, -, -, -, -, -, -, -, -, -, e0, e1⟩ := idx_facts t
  refine funext fun a => Fin.ext ?_
  match a with
  | ⟨0, _⟩ => show win1_5.index t (0 : Fin 2) * 5000 + 1 * p.val = t.val * 5000 + p.val; omega
  | ⟨1, _⟩ => show win1_5.index t (1 : Fin 2) * 64 + 1 * q.val = q.val; omega

/-- What point `t` writes back is block `t` of `out`. -/
theorem flushed_eq (c : Dev nD) (t : Fin cfg1.N) :
    (dat1 V c).flushed 5 t = ((cfg1.win 5).blk t).view.read (Elt Ideal) (out V c) := by
  show (cfg1.win 5).cut (grid1.coords t) ((dat1 V c).after 5 t) = _
  rw [after1_5]
  unfold out1_5
  rw [View.canon_unit_zero zeros]
  simp only [View.ld_unit_zero (S := S5000x128) zeros, View.ld_unit_zero (S := S128x64) zeros, View.ld_unit_zero (S := S1x64) zeros]
  funext j
  obtain ⟨p, q, rfl⟩ : ∃ (p : Fin 5000) (q : Fin 64), j = ix2 p q := ⟨j 0, j 1, eq_ix2 j⟩
  have hp : t.val * 5000 + p.val < 50000 := by
    have h1 := t.isLt; have h2 : cfg1.N = 10 := N_1; have h3 := p.isLt; omega
  show k1_pay1 (F := Ideal) (iblk1 V c 0 t) (iblk1 V c 1 t) (iblk1 V c 2 t) (iblk1 V c 3 t) (iblk1 V c 4 t) (ix2 p q)
    = out V c (((cfg1.win 5).blk t).view.emb (ix2 p q))
  rw [Cert.KernelIdeal.Block.pay1_apply, out_at t p q hp]
  unfold out
  rw [Cert.Sage.layer_apply]
  unfold Cert.Sage.layerAt
  simp only [rows0 V c t p _ hp, rows1 V c t p _ hp, whole2 V c t, whole3 V c t, whole4 V c t]

/-- An index of the output array is in point `t`'s block iff each coordinate is in the block's range on its axis. -/
theorem mem_blk (t : Fin cfg1.N) (i : S50000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v37).slice (win1_5.rect t)).set ↔ _
  rw [View.set_slice_whole, Rect.mem_set_unit]
  exact Iff.rfl

/-- The ten row blocks tile the output: row `r` is in the block of point `r / 5000`. -/
theorem cover (i : S50000x64.Idx) :
    ∃ t : Fin cfg1.N, (cfg1.win 5).flush t = true ∧ i ∈ ((cfg1.win 5).blk t).view.set := by
  have hi0 : (i 0).val < 50000 := (i 0).isLt
  have hi1 : (i 1).val < 64 := (i 1).isLt
  have hN : cfg1.N = 10 := N_1
  let t : Fin cfg1.N := ⟨(i 0).val / 5000, by rw [hN]; omega⟩
  obtain ⟨-, -, -, -, -, -, -, -, -, -, e0, e1⟩ := idx_facts t
  have ht : t.val = (i 0).val / 5000 := rfl
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

/-- The output array after the call is the layer of the arrays the call was entered with. -/
theorem final (c : Dev nD) : (dat1 V c).arrAt 5 cfg1.N = out V c :=
  (dat1 V c).arrAt_eq_of_cover 5 (out V c) (fun t _ => flushed_eq V c t) (cover)

end Cert.KernelIdeal.Region1

end
-- ==== Proof.Aggregate.lean ====
/-
  The mean aggregation over incoming edges, as one function of the features it averages.

  Both programs compute it with the same host operations: the degree of a node is the number of edges that point at
  it (ones scattered and summed by destination), its reciprocal is taken after flooring the degree at one, the source
  rows of the features are gathered edge by edge (a negative source index wrapped once by the number of nodes), summed
  by destination, and each node's sum is scaled by that reciprocal. The certificate never opens these operations: it
  only needs that both programs apply THIS function to equal features and equal edge lists.
-/
import proofs.«137818_j27977416966302_1_alg».proof.Proof.Gen.ReferenceIdeal
import Idealize.ShloMosaic.PureOps.Ideal

noncomputable section

namespace Cert.Sage

open Idealize.ShloMosaic Cert.ReferenceIdeal Cert.ReferenceIdeal.Gen

/-- One over the in-degree of every node, the degree floored at one. -/
def invDeg (dst : (⟨S800000, .i32⟩ : BufTy).Contents (Elt Ideal)) : (⟨S50000, .f32⟩ : BufTy).Contents (Elt Ideal) :=
  Host.divf (F := Ideal) (broadcastInDim S50000 ![] bcast_S_S50000 (constant (F := Ideal) S_ .f32 0x3F800000#32))
    (maximumf (F := Ideal)
      (Host.scatterAdd (F := Ideal) scatter_S50000_S800000x1_S800000_n_0_0_1
        (broadcastInDim S50000 ![] bcast_S_S50000 (constant (F := Ideal) S_ .f32 0x00000000#32))
        (broadcastInDim S800000x1 ![0] bcast_S800000_S800000x1_0 dst)
        (broadcastInDim S800000 ![] bcast_S_S800000 (constant (F := Ideal) S_ .f32 0x3F800000#32)))
      (broadcastInDim S50000 ![] bcast_S_S50000 (constant (F := Ideal) S_ .f32 0x3F800000#32)))

/-- The mean over incoming edges of the source rows of `h`, given the reciprocal degrees. -/
def aggWith (h : (⟨S50000x128, .f32⟩ : BufTy).Contents (Elt Ideal))
    (src dst : (⟨S800000, .i32⟩ : BufTy).Contents (Elt Ideal))
    (inv : (⟨S50000, .f32⟩ : BufTy).Contents (Elt Ideal)) : (⟨S50000x128, .f32⟩ : BufTy).Contents (Elt Ideal) :=
  mulf (F := Ideal)
    (Host.scatterAdd (F := Ideal) scatter_S50000x128_S800000x1_S800000x128_1_0_0_1
      (broadcastInDim S50000x128 ![] bcast_S_S50000x128 (constant (F := Ideal) S_ .f32 0x00000000#32))
      (broadcastInDim S800000x1 ![0] bcast_S800000_S800000x1_0 dst)
      (Host.gather gather_S50000x128_S800000x1_S800000x128_1_0_n_n_0_1_1128 h
        (broadcastInDim S800000x1 ![0] bcast_S800000_S800000x1_0
          (select
            (cmpi .slt src (broadcastInDim S800000 ![] bcast_S_S800000 (constantI S_ 32 0#32 : (⟨S_, .i32⟩ : BufTy).Contents (Elt Ideal))))
            (addi src (broadcastInDim S800000 ![] bcast_S_S800000 (constantI S_ 32 50000#32 : (⟨S_, .i32⟩ : BufTy).Contents (Elt Ideal))))
            src))))
    (broadcastInDim S50000x128 ![0, 1] bcast_S50000x1_S50000x128_0_1
      (broadcastInDim S50000x1 ![0] bcast_S50000_S50000x1_0 inv))

/-- The mean aggregation: `aggWith` at the reciprocal degrees of the same edge list. -/
def agg (h : (⟨S50000x128, .f32⟩ : BufTy).Contents (Elt Ideal))
    (src dst : (⟨S800000, .i32⟩ : BufTy).Contents (Elt Ideal)) : (⟨S50000x128, .f32⟩ : BufTy).Contents (Elt Ideal) :=
  aggWith h src dst (invDeg dst)

end Cert.Sage

end
-- ==== Proof.KernelChain.lean ====
/-
  The idealized kernel program's result as a function of its arguments.

  The program runs four segments: host operations (the reciprocal degrees, the aggregation of the input features, the
  first bias laid as a row), the first layer's call, host operations again (the aggregation of the first layer's
  output, the second bias laid as a row), the second layer's call. Each buffer is followed through the segments: an
  argument is written by nothing; the reciprocal degrees are computed once and reused; each call leaves its output
  array at the layer of the arrays it was entered with. The aggregation is never opened: both stretches apply the one
  shared function, to the input features and to the first layer's output.
-/
import proofs.«137818_j27977416966302_1_alg».proof.Proof.Gen.KernelIdeal.Frame
import proofs.«137818_j27977416966302_1_alg».proof.Proof.Region0
import proofs.«137818_j27977416966302_1_alg».proof.Proof.Region1
import proofs.«137818_j27977416966302_1_alg».proof.Proof.Aggregate
import proofs.«137818_j27977416966302_1_alg».proof.Proof.LibBiasRow
import Idealize.ShloMosaic.Lib.StableHlo.Run
import Idealize.ShloMosaic.Lib.ValueIdx

set_option maxRecDepth 16384

noncomputable section

namespace Cert.KernelIdeal.Chain

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- No operation of a host stretch writes the buffer at hand: each operation's one result buffer is another. -/
macro "host_keeps" : tactic => `(tactic| (
  simp only [hostOps0, hostOps1, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-! ## The arguments, as each segment finds them -/

/-- The first host stretch leaves argument 0 as launched. -/
theorem W1_arg0 (c : Dev nD) : W1 m ρ c (Proc.devRef .tc main_arg0) = (m ((c : Thread nD τ).loc main_arg0)) :=
  (StableHlo.after_of_forall_not_mem (b := Proc.devRef .tc main_arg0) _ _ (List.forall_iff_forall_mem.mp (by host_keeps))).trans rfl
/-- The first host stretch leaves argument 1 as launched. -/
theorem W1_arg1 (c : Dev nD) : W1 m ρ c (Proc.devRef .tc main_arg1) = (m ((c : Thread nD τ).loc main_arg1)) :=
  (StableHlo.after_of_forall_not_mem (b := Proc.devRef .tc main_arg1) _ _ (List.forall_iff_forall_mem.mp (by host_keeps))).trans rfl
/-- The first host stretch leaves argument 2 as launched. -/
theorem W1_arg2 (c : Dev nD) : W1 m ρ c (Proc.devRef .tc main_arg2) = (m ((c : Thread nD τ).loc main_arg2)) :=
  (StableHlo.after_of_forall_not_mem (b := Proc.devRef .tc main_arg2) _ _ (List.forall_iff_forall_mem.mp (by host_keeps))).trans rfl
/-- The first host stretch leaves argument 3 as launched. -/
theorem W1_arg3 (c : Dev nD) : W1 m ρ c (Proc.devRef .tc main_arg3) = (m ((c : Thread nD τ).loc main_arg3)) :=
  (StableHlo.after_of_forall_not_mem (b := Proc.devRef .tc main_arg3) _ _ (List.forall_iff_forall_mem.mp (by host_keeps))).trans rfl
/-- The first host stretch leaves argument 4 as launched. -/
theorem W1_arg4 (c : Dev nD) : W1 m ρ c (Proc.devRef .tc main_arg4) = (m ((c : Thread nD τ).loc main_arg4)) :=
  (StableHlo.after_of_forall_not_mem (b := Proc.devRef .tc main_arg4) _ _ (List.forall_iff_forall_mem.mp (by host_keeps))).trans rfl
/-- The first host stretch leaves argument 6 as launched. -/
theorem W1_arg6 (c : Dev nD) : W1 m ρ c (Proc.devRef .tc main_arg6) = (m ((c : Thread nD τ).loc main_arg6)) :=
  (StableHlo.after_of_forall_not_mem (b := Proc.devRef .tc main_arg6) _ _ (List.forall_iff_forall_mem.mp (by host_keeps))).trans rfl
/-- The first host stretch leaves argument 7 as launched. -/
theorem W1_arg7 (c : Dev nD) : W1 m ρ c (Proc.devRef .tc main_arg7) = (m ((c : Thread nD τ).loc main_arg7)) :=
  (StableHlo.after_of_forall_not_mem (b := Proc.devRef .tc main_arg7) _ _ (List.forall_iff_forall_mem.mp (by host_keeps))).trans rfl
/-- The first host stretch leaves argument 8 as launched. -/
theorem W1_arg8 (c : Dev nD) : W1 m ρ c (Proc.devRef .tc main_arg8) = (m ((c : Thread nD τ).loc main_arg8)) :=
  (StableHlo.after_of_forall_not_mem (b := Proc.devRef .tc main_arg8) _ _ (List.forall_iff_forall_mem.mp (by host_keeps))).trans rfl
/-- The first call leaves argument 1 as launched. -/
theorem W2_arg1 (c : Dev nD) : W2 m ρ c (Proc.devRef .tc main_arg1) = (m ((c : Thread nD τ).loc main_arg1)) :=
  (W2_of_ne m ρ c main_arg1 (by decide)).trans (W1_arg1 m ρ c)
/-- The first call leaves argument 2 as launched. -/
theorem W2_arg2 (c : Dev nD) : W2 m ρ c (Proc.devRef .tc main_arg2) = (m ((c : Thread nD τ).loc main_arg2)) :=
  (W2_of_ne m ρ c main_arg2 (by decide)).trans (W1_arg2 m ρ c)
/-- The first call leaves argument 6 as launched. -/
theorem W2_arg6 (c : Dev nD) : W2 m ρ c (Proc.devRef .tc main_arg6) = (m ((c : Thread nD τ).loc main_arg6)) :=
  (W2_of_ne m ρ c main_arg6 (by decide)).trans (W1_arg6 m ρ c)
/-- The first call leaves argument 7 as launched. -/
theorem W2_arg7 (c : Dev nD) : W2 m ρ c (Proc.devRef .tc main_arg7) = (m ((c : Thread nD τ).loc main_arg7)) :=
  (W2_of_ne m ρ c main_arg7 (by decide)).trans (W1_arg7 m ρ c)
/-- The first call leaves argument 8 as launched. -/
theorem W2_arg8 (c : Dev nD) : W2 m ρ c (Proc.devRef .tc main_arg8) = (m ((c : Thread nD τ).loc main_arg8)) :=
  (W2_of_ne m ρ c main_arg8 (by decide)).trans (W1_arg8 m ρ c)
/-- The second host stretch leaves argument 6 as launched. -/
theorem W3_arg6 (c : Dev nD) : W3 m ρ c (Proc.devRef .tc main_arg6) = (m ((c : Thread nD τ).loc main_arg6)) :=
  (StableHlo.after_of_forall_not_mem (b := Proc.devRef .tc main_arg6) _ _ (List.forall_iff_forall_mem.mp (by host_keeps))).trans (W2_arg6 m ρ c)
/-- The second host stretch leaves argument 7 as launched. -/
theorem W3_arg7 (c : Dev nD) : W3 m ρ c (Proc.devRef .tc main_arg7) = (m ((c : Thread nD τ).loc main_arg7)) :=
  (StableHlo.after_of_forall_not_mem (b := Proc.devRef .tc main_arg7) _ _ (List.forall_iff_forall_mem.mp (by host_keeps))).trans (W2_arg7 m ρ c)

/-! ## What the first host stretch computes -/

/-- The aggregated neighbour features the first call is entered with: the shared aggregation of the input features. -/
theorem W1_v20 (c : Dev nD) :
    W1 m ρ c (Proc.devRef .tc main_v20) = Cert.Sage.agg (m ((c : Thread nD τ).loc main_arg0)) (m ((c : Thread nD τ).loc main_arg1)) (m ((c : Thread nD τ).loc main_arg2)) := by
  show StableHlo.after hostOps0 (W0 m ρ c) (Proc.devRef .tc main_v20) = _
  dsimp only [hostOps0]
  after_results_simp
  rfl

/-- The first layer's bias as the first call finds it: the bias vector laid as one row. -/
theorem W1_v21 (c : Dev nD) :
    W1 m ρ c (Proc.devRef .tc main_v21) = shapeCast S1x128 (m ((c : Thread nD τ).loc main_arg5)) shapeCasts_S128_S1x128 := by
  show StableHlo.after hostOps0 (W0 m ρ c) (Proc.devRef .tc main_v21) = _
  dsimp only [hostOps0]
  after_results_simp
  rfl

/-- The reciprocal degrees, computed once before the first call. -/
theorem W1_v7 (c : Dev nD) :
    W1 m ρ c (Proc.devRef .tc main_v7) = Cert.Sage.invDeg (m ((c : Thread nD τ).loc main_arg2)) := by
  show StableHlo.after hostOps0 (W0 m ρ c) (Proc.devRef .tc main_v7) = _
  dsimp only [hostOps0]
  after_results_simp
  rfl

/-- The first call does not touch the reciprocal degrees. -/
theorem W2_v7 (c : Dev nD) : W2 m ρ c (Proc.devRef .tc main_v7) = Cert.Sage.invDeg (m ((c : Thread nD τ).loc main_arg2)) :=
  (W2_of_ne m ρ c main_v7 (by decide)).trans (W1_v7 m ρ c)

/-! ## The first layer -/

/-- The first layer's output array after its call, as a function of the program's arguments. -/
def hidden (c : Dev nD) : S50000x128.Idx → Ideal .f32 :=
  Cert.Sage.layerRelu (n := 50000) (k := 128) (c := 128) (m ((c : Thread nD τ).loc main_arg0)) (Cert.Sage.agg (m ((c : Thread nD τ).loc main_arg0)) (m ((c : Thread nD τ).loc main_arg1)) (m ((c : Thread nD τ).loc main_arg2))) (m ((c : Thread nD τ).loc main_arg3)) (m ((c : Thread nD τ).loc main_arg4)) (m ((c : Thread nD τ).loc main_arg5))

/-- The first call leaves its output array at the rectified layer of the arguments. -/
theorem W2_v22 (c : Dev nD) : W2 m ρ c (Proc.devRef .tc main_v22) = hidden m c := by
  refine (W2_arr m ρ c 5).trans ((Cert.KernelIdeal.Region0.final (V1 m ρ) c).trans ?_)
  unfold Cert.KernelIdeal.Region0.out hidden
  have e0 : V1 m ρ c main_arg0 = (m ((c : Thread nD τ).loc main_arg0)) := W1_arg0 m ρ c
  have e1 : V1 m ρ c main_v20 = Cert.Sage.agg (m ((c : Thread nD τ).loc main_arg0)) (m ((c : Thread nD τ).loc main_arg1)) (m ((c : Thread nD τ).loc main_arg2)) := W1_v20 m ρ c
  have e3 : V1 m ρ c main_arg3 = (m ((c : Thread nD τ).loc main_arg3)) := W1_arg3 m ρ c
  have e4 : V1 m ρ c main_arg4 = (m ((c : Thread nD τ).loc main_arg4)) := W1_arg4 m ρ c
  have e5 : (fun j : S128.Idx => (V1 m ρ c main_v21 : S1x128.Idx → Ideal .f32) (ix2 (0 : Fin 1) (j 0))) = (m ((c : Thread nD τ).loc main_arg5)) := by
    funext j
    obtain ⟨q, rfl⟩ : ∃ q : Fin 128, j = ix1 q := ⟨j 0, eq_ix1 j⟩
    have e := W1_v21 m ρ c
    show (W1 m ρ c (Proc.devRef .tc main_v21) : S1x128.Idx → Ideal .f32) (ix2 (0 : Fin 1) q) = _
    rw [e]
    exact BiasRead.vector_as_row_apply _ _ 0 q
  rw [e0, e1, e3, e4, e5]

/-! ## What the second host stretch computes -/

/-- The second host stretch does not touch the first layer's output. -/
theorem W3_v22 (c : Dev nD) : W3 m ρ c (Proc.devRef .tc main_v22) = hidden m c :=
  (StableHlo.after_of_forall_not_mem (b := Proc.devRef .tc main_v22) _ _ (List.forall_iff_forall_mem.mp (by host_keeps))).trans (W2_v22 m ρ c)

/-- The aggregated neighbour features the second call is entered with: the same aggregation, of the first layer's output. -/
theorem W3_v35 (c : Dev nD) :
    W3 m ρ c (Proc.devRef .tc main_v35) = Cert.Sage.agg (hidden m c) (m ((c : Thread nD τ).loc main_arg1)) (m ((c : Thread nD τ).loc main_arg2)) := by
  have e : W3 m ρ c (Proc.devRef .tc main_v35)
      = Cert.Sage.aggWith (W2 m ρ c (Proc.devRef .tc main_v22)) (W2 m ρ c (Proc.devRef .tc main_arg1))
          (W2 m ρ c (Proc.devRef .tc main_arg2)) (W2 m ρ c (Proc.devRef .tc main_v7)) := by
    show StableHlo.after hostOps1 (W2 m ρ c) (Proc.devRef .tc main_v35) = _
    dsimp only [hostOps1]
    after_results_simp
    rfl
  rw [e, W2_v22, W2_arg1, W2_arg2, W2_v7]
  rfl

/-- The second layer's bias as the second call finds it: the bias vector laid as one row. -/
theorem W3_v36 (c : Dev nD) :
    W3 m ρ c (Proc.devRef .tc main_v36) = shapeCast S1x64 (m ((c : Thread nD τ).loc main_arg8)) shapeCasts_S64_S1x64 := by
  have e : W3 m ρ c (Proc.devRef .tc main_v36) = shapeCast S1x64 (W2 m ρ c (Proc.devRef .tc main_arg8)) shapeCasts_S64_S1x64 := by
    show StableHlo.after hostOps1 (W2 m ρ c) (Proc.devRef .tc main_v36) = _
    dsimp only [hostOps1]
    after_results_simp
    rfl
  rw [e, W2_arg8]

/-! ## The second layer: the program's result -/

/-- The program's result as a function of its arguments: the second layer of the first layer's output and of its
    aggregation. -/
def result (c : Dev nD) : S50000x64.Idx → Ideal .f32 :=
  Cert.Sage.layer (n := 50000) (k := 128) (c := 64) (hidden m c) (Cert.Sage.agg (hidden m c) (m ((c : Thread nD τ).loc main_arg1)) (m ((c : Thread nD τ).loc main_arg2))) (m ((c : Thread nD τ).loc main_arg6)) (m ((c : Thread nD τ).loc main_arg7)) (m ((c : Thread nD τ).loc main_arg8))

/-- After the last segment the result buffer holds `result`. -/
theorem W4_v37 (c : Dev nD) : W4 m ρ c (Proc.devRef .tc main_v37) = result m c := by
  refine (W4_arr m ρ c 5).trans ((Cert.KernelIdeal.Region1.final (V3 m ρ) c).trans ?_)
  unfold Cert.KernelIdeal.Region1.out result
  have e0 : V3 m ρ c main_v22 = hidden m c := W3_v22 m ρ c
  have e1 : V3 m ρ c main_v35 = Cert.Sage.agg (hidden m c) (m ((c : Thread nD τ).loc main_arg1)) (m ((c : Thread nD τ).loc main_arg2)) := W3_v35 m ρ c
  have e3 : V3 m ρ c main_arg6 = (m ((c : Thread nD τ).loc main_arg6)) := W3_arg6 m ρ c
  have e4 : V3 m ρ c main_arg7 = (m ((c : Thread nD τ).loc main_arg7)) := W3_arg7 m ρ c
  have e5 : (fun j : S64.Idx => (V3 m ρ c main_v36 : S1x64.Idx → Ideal .f32) (ix2 (0 : Fin 1) (j 0))) = (m ((c : Thread nD τ).loc main_arg8)) := by
    funext j
    obtain ⟨q, rfl⟩ : ∃ q : Fin 64, j = ix1 q := ⟨j 0, eq_ix1 j⟩
    have e := W3_v36 m ρ c
    show (W3 m ρ c (Proc.devRef .tc main_v36) : S1x64.Idx → Ideal .f32) (ix2 (0 : Fin 1) q) = _
    rw [e]
    exact BiasRead.vector_as_row_apply _ _ 0 q
  rw [e0, e1, e3, e4, e5]

end Cert.KernelIdeal.Chain

end
-- ==== Proof.RefSide.lean ====
/-
  The reference program read stage by stage: its last stage is the two layers of the specification over the shared
  mean aggregation.

  The reference computes, from features `x0`, the edge lists `x1` (sources) and `x2` (destinations), and two sets of
  weights and a bias per layer: the aggregation of `x0`; the first layer, two matrix products added and the bias added
  last, cut off below at the value of the all-zero word; the aggregation of that rectified layer; and the second layer
  without a cut-off. Each aggregation is, operation for operation, the shared aggregation function applied to the
  features at hand and the same edge lists, so it is identified with it without opening a gather or a scatter. Each
  layer is then read entry by entry: a matrix product at `(p, q)` is the sum over `e` of the left factor at `(p, e)`
  times the right factor at `(e, q)`, and a bias broadcast first to a row and then down the rows reads the bias at the
  column `q`. Only the commutative monoid of the extended reals is used: no entry need be finite.
-/
import proofs.«137818_j27977416966302_1_alg».proof.Proof.Gen.ReferenceIdeal.Read
import proofs.«137818_j27977416966302_1_alg».proof.Proof.Layer
import proofs.«137818_j27977416966302_1_alg».proof.Proof.Aggregate

noncomputable section

namespace Cert.ReferenceIdeal.RefValue

open Cert.ReferenceIdeal Cert.ReferenceIdeal.Gen Cert.ReferenceIdeal.Read Idealize.ShloMosaic Idealize.ShloMosaic.ValueIdx

/-! ## The two aggregations are the shared one -/

/-- The aggregation of the input features is the shared aggregation of `x0`: the same operations in the same order. -/
theorem agg0 (x0 : (⟨S50000x128, .f32⟩ : BufTy).Contents (Elt Ideal)) (x1 x2 : (⟨S800000, .i32⟩ : BufTy).Contents (Elt Ideal)) :
    val_main_v20 (F := Ideal) x0 x1 x2 = Cert.Sage.agg x0 x1 x2 := by
  unfold val_main_v20 val_main_v17 val_main_v19 val_main_v18 val_main_v7 val_main_v6 val_main_v5 val_main_v4 val_main_v3
    val_main_v2 val_main_v1 val_main_v0 val_main_v16 val_main_v15 val_main_v14 val_main_v13 val_main_v12 val_main_v11
    val_main_v10 val_main_v9 val_main_v8 val_main_cst val_main_cst_0 val_main_cst_1 val_main_cst_2 val_main_cst_4
    val_main_c val_main_c_3 Cert.Sage.agg Cert.Sage.aggWith Cert.Sage.invDeg
  rfl

/-- The aggregation of the rectified first layer is the shared aggregation of that layer. -/
theorem agg1 (x0 : (⟨S50000x128, .f32⟩ : BufTy).Contents (Elt Ideal)) (x1 x2 : (⟨S800000, .i32⟩ : BufTy).Contents (Elt Ideal))
    (x3 x4 : (⟨S128x128, .f32⟩ : BufTy).Contents (Elt Ideal)) (x5 : (⟨S128, .f32⟩ : BufTy).Contents (Elt Ideal)) :
    val_main_v40 (F := Ideal) x0 x1 x2 x3 x4 x5 = Cert.Sage.agg (val_main_v27 (F := Ideal) x0 x1 x2 x3 x4 x5) x1 x2 := by
  unfold val_main_v40 val_main_v37 val_main_v34
  generalize val_main_v27 (F := Ideal) x0 x1 x2 x3 x4 x5 = h
  unfold val_main_v39 val_main_v38 val_main_v7 val_main_v6 val_main_v5 val_main_v4 val_main_v3
    val_main_v2 val_main_v1 val_main_v0 val_main_v36 val_main_v35 val_main_v33 val_main_v32 val_main_v31
    val_main_v30 val_main_v29 val_main_v28 val_main_cst val_main_cst_0 val_main_cst_1 val_main_cst_2 val_main_cst_7
    val_main_c_5 val_main_c_6 Cert.Sage.agg Cert.Sage.aggWith Cert.Sage.invDeg
  rfl

/-! ## Index arithmetic: where each stage of a layer reads its operands at entry `(p, q)` -/

/-- The left factor of the first layer's products is read at `(p, e)`. -/
theorem lidx21 (p : Fin 50000) (q : Fin 128) (e : Fin 128) : lidx_main_v21 (ix2 p q) e = ix2 p e :=
  funext fun a => Fin.ext (by match a with | ⟨0, _⟩ => rfl | ⟨1, _⟩ => rfl)
/-- The right factor of the first layer's products is read at `(e, q)`. -/
theorem ridx21 (p : Fin 50000) (q : Fin 128) (e : Fin 128) : ridx_main_v21 (ix2 p q) e = ix2 e q :=
  funext fun a => Fin.ext (by match a with | ⟨0, _⟩ => rfl | ⟨1, _⟩ => rfl)
theorem lidx22 (p : Fin 50000) (q : Fin 128) (e : Fin 128) : lidx_main_v22 (ix2 p q) e = ix2 p e :=
  funext fun a => Fin.ext (by match a with | ⟨0, _⟩ => rfl | ⟨1, _⟩ => rfl)
theorem ridx22 (p : Fin 50000) (q : Fin 128) (e : Fin 128) : ridx_main_v22 (ix2 p q) e = ix2 e q :=
  funext fun a => Fin.ext (by match a with | ⟨0, _⟩ => rfl | ⟨1, _⟩ => rfl)
/-- The first layer's bias, broadcast to a row and then down the rows, is read at the column `q`. -/
theorem bidx1 (p : Fin 50000) (q : Fin 128) : idx_main_v24 (idx_main_v25 (ix2 p q)) = ix1 q :=
  funext fun a => Fin.ext (by match a with | ⟨0, _⟩ => rfl)

/-- The left factor of the second layer's products is read at `(p, e)`. -/
theorem lidx41 (p : Fin 50000) (q : Fin 64) (e : Fin 128) : lidx_main_v41 (ix2 p q) e = ix2 p e :=
  funext fun a => Fin.ext (by match a with | ⟨0, _⟩ => rfl | ⟨1, _⟩ => rfl)
/-- The right factor of the second layer's products is read at `(e, q)`. -/
theorem ridx41 (p : Fin 50000) (q : Fin 64) (e : Fin 128) : ridx_main_v41 (ix2 p q) e = ix2 e q :=
  funext fun a => Fin.ext (by match a with | ⟨0, _⟩ => rfl | ⟨1, _⟩ => rfl)
theorem lidx42 (p : Fin 50000) (q : Fin 64) (e : Fin 128) : lidx_main_v42 (ix2 p q) e = ix2 p e :=
  funext fun a => Fin.ext (by match a with | ⟨0, _⟩ => rfl | ⟨1, _⟩ => rfl)
theorem ridx42 (p : Fin 50000) (q : Fin 64) (e : Fin 128) : ridx_main_v42 (ix2 p q) e = ix2 e q :=
  funext fun a => Fin.ext (by match a with | ⟨0, _⟩ => rfl | ⟨1, _⟩ => rfl)
/-- The second layer's bias, broadcast to a row and then down the rows, is read at the column `q`. -/
theorem bidx2 (p : Fin 50000) (q : Fin 64) : idx_main_v44 (idx_main_v45 (ix2 p q)) = ix1 q :=
  funext fun a => Fin.ext (by match a with | ⟨0, _⟩ => rfl)

/-! ## The first layer -/

/-- The rectified first layer of the reference is the specification's, over the shared aggregation of `x0`. -/
theorem layer1 (x0 : (⟨S50000x128, .f32⟩ : BufTy).Contents (Elt Ideal)) (x1 x2 : (⟨S800000, .i32⟩ : BufTy).Contents (Elt Ideal))
    (x3 x4 : (⟨S128x128, .f32⟩ : BufTy).Contents (Elt Ideal)) (x5 : (⟨S128, .f32⟩ : BufTy).Contents (Elt Ideal)) :
    val_main_v27 (F := Ideal) x0 x1 x2 x3 x4 x5 = Cert.Sage.layerRelu x0 (Cert.Sage.agg x0 x1 x2) x3 x4 x5 := by
  funext j
  obtain ⟨p, q, rfl⟩ : ∃ (p : Fin 50000) (q : Fin 128), j = ix2 p q := ⟨j 0, j 1, eq_ix2 j⟩
  rw [Cert.Sage.layerRelu_apply]
  unfold Cert.Sage.layerAt
  rw [val_main_v27_apply, val_main_v26_apply, val_main_v23_apply, val_main_v21_apply, val_main_v22_apply,
    val_main_v25_apply, val_main_v24_apply, val_main_call0_v0_apply, val_main_call0_cst_apply, agg0]
  simp only [lidx21, ridx21, lidx22, ridx22, bidx1]
  rfl

/-! ## The second layer -/

/-- The second layer of the reference is the specification's layer of the first layer's value and of its aggregation. -/
theorem layer2 (x0 : (⟨S50000x128, .f32⟩ : BufTy).Contents (Elt Ideal)) (x1 x2 : (⟨S800000, .i32⟩ : BufTy).Contents (Elt Ideal))
    (x3 x4 : (⟨S128x128, .f32⟩ : BufTy).Contents (Elt Ideal)) (x5 : (⟨S128, .f32⟩ : BufTy).Contents (Elt Ideal))
    (x6 x7 : (⟨S128x64, .f32⟩ : BufTy).Contents (Elt Ideal)) (x8 : (⟨S64, .f32⟩ : BufTy).Contents (Elt Ideal)) :
    val_main_v46 (F := Ideal) x0 x1 x2 x3 x4 x5 x6 x7 x8
      = Cert.Sage.layer (val_main_v27 (F := Ideal) x0 x1 x2 x3 x4 x5) (val_main_v40 (F := Ideal) x0 x1 x2 x3 x4 x5) x6 x7 x8 := by
  funext j
  obtain ⟨p, q, rfl⟩ : ∃ (p : Fin 50000) (q : Fin 64), j = ix2 p q := ⟨j 0, j 1, eq_ix2 j⟩
  rw [Cert.Sage.layer_apply]
  unfold Cert.Sage.layerAt
  rw [val_main_v46_apply, val_main_v43_apply, val_main_v41_apply, val_main_v42_apply, val_main_v45_apply,
    val_main_v44_apply]
  simp only [lidx41, ridx41, lidx42, ridx42, bidx2]
  rfl

/-! ## The whole reference -/

/-- the reference's last stage is the two layers of the specification over the shared aggregation -/
theorem result_eq
    (x0 : (⟨S50000x128, .f32⟩ : BufTy).Contents (Elt Ideal)) (x1 x2 : (⟨S800000, .i32⟩ : BufTy).Contents (Elt Ideal))
    (x3 x4 : (⟨S128x128, .f32⟩ : BufTy).Contents (Elt Ideal)) (x5 : (⟨S128, .f32⟩ : BufTy).Contents (Elt Ideal))
    (x6 x7 : (⟨S128x64, .f32⟩ : BufTy).Contents (Elt Ideal)) (x8 : (⟨S64, .f32⟩ : BufTy).Contents (Elt Ideal)) :
    val_main_v46 (F := Ideal) x0 x1 x2 x3 x4 x5 x6 x7 x8
      = Cert.Sage.layer (Cert.Sage.layerRelu x0 (Cert.Sage.agg x0 x1 x2) x3 x4 x5)
          (Cert.Sage.agg (Cert.Sage.layerRelu x0 (Cert.Sage.agg x0 x1 x2) x3 x4 x5) x1 x2) x6 x7 x8 := by
  rw [layer2, agg1, layer1]

end Cert.ReferenceIdeal.RefValue

end
-- ==== Proof.lean ====
/- The certificate of a two-layer graph convolution against its jnp reference, at the exact extended reals.

   Both programs compute, from node features, an edge list and two layers' weights and biases,
     h = max((x · Ws₁ + mean(x) · Wn₁) + b₁, 0),   out = (h · Ws₂ + mean(h) · Wn₂) + b₂,
   where `mean` gathers the source rows edge by edge, sums them by destination and scales by the reciprocal of the
   in-degree floored at one. The kernel program runs `mean` on the host and each layer as a call tiled over ten blocks of
   5000 rows; the reference runs everything on the host. `mean` is the same host operations in both, carried as one
   function and never opened (Proof/Aggregate.lean). A layer is read entry by entry (Proof/Layer.lean): each call's
   block is the layer's entry over the blocks it loaded (Proof/KernelBlock.lean), the ten blocks tile the output array
   (Proof/Region0.lean, Proof/Region1.lean), the buffers are followed through the program's four segments
   (Proof/KernelChain.lean) and the run names the result (Proof/KernelRun.lean); the reference's stages are the same two
   layers (Proof/RefSide.lean). Sums are only regrouped as commutative-monoid sums and a change of float format is the
   identity, so no input need be finite: the precondition is never opened. The idealization rewrote nothing, so
   `preserves` is trivial; the three frames are the generated ones. -/
import proofs.«137818_j27977416966302_1_alg».proof.Defs
import proofs.«137818_j27977416966302_1_alg».proof.Proof.Gen.Kernel
import proofs.«137818_j27977416966302_1_alg».proof.Proof.Gen.Kernel.Frame
import proofs.«137818_j27977416966302_1_alg».proof.Proof.Gen.KernelIdeal
import proofs.«137818_j27977416966302_1_alg».proof.Proof.Gen.KernelIdeal.Frame
import proofs.«137818_j27977416966302_1_alg».proof.Proof.Gen.ReferenceIdeal
import proofs.«137818_j27977416966302_1_alg».proof.Proof.Gen.ReferenceIdeal.Run
import proofs.«137818_j27977416966302_1_alg».proof.Proof.Gen.ReferenceIdeal.Read
import proofs.«137818_j27977416966302_1_alg».proof.Proof.Gen.Pre_finite_inputs
import proofs.«137818_j27977416966302_1_alg».proof.Proof.KernelRun
import proofs.«137818_j27977416966302_1_alg».proof.Proof.KernelChain
import proofs.«137818_j27977416966302_1_alg».proof.Proof.RefSide
import Idealize.ShloMosaic.Adequacy
import Idealize.ShloMosaic.Init

noncomputable section

namespace Cert.Proof

open Idealize.ShloMosaic Idealize.SL.Sem

/-- The kernel program as printed runs and leaves its arguments unchanged. -/
theorem frame_kernel : Cert.frame_Kernel := fun m ρ _ => Cert.Kernel.Gen.frame m ρ

/-- The idealized kernel program runs and leaves its arguments unchanged. -/
theorem frame_kernelIdeal : Cert.frame_KernelIdeal := fun m ρ _ => Cert.KernelIdeal.Gen.frame m ρ

/-- The idealized reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with the same result: the two layers over
    the shared aggregation, of the same arguments. -/
theorem algebraic : Cert.algebraic_KernelIdeal_ReferenceIdeal := by
  intro m ρ m' ρ' _ hagree
  refine ⟨fun c => Cert.KernelIdeal.Chain.result m c, ?_, ?_⟩
  · exact (θ_run Cert.KernelIdeal.defs _ _).mono
      (fun r h c => ⟨(h c).1.trans (Cert.KernelIdeal.Chain.W4_v37 m ρ c), (h c).2⟩)
      (Cert.KernelIdeal.RunValue.run (F := Ideal) m ρ)
  · refine (θ_run Cert.ReferenceIdeal.defs _ _).mono (fun r h c => ⟨(h c).1.trans ?_, (h c).2⟩)
      (Cert.ReferenceIdeal.Value.run (F := Ideal) m' ρ')
    show Cert.ReferenceIdeal.Value.res_main_v46 m' c = Cert.KernelIdeal.Chain.result m c
    rw [Cert.ReferenceIdeal.Read.val_main_v46_eq, Cert.ReferenceIdeal.RefValue.result_eq]
    obtain ⟨h0, h1, h2, h3, h4, h5, h6, h7, h8⟩ := hagree c
    rw [h0, h1, h2, h3, h4, h5, h6, h7, h8]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
